-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S1024x10000 : Shape := ⟨2, ![1024, 10000]⟩
abbrev S1024 : Shape := ⟨1, ![1024]⟩
abbrev S100x1024 : Shape := ⟨2, ![100, 1024]⟩
abbrev S100 : Shape := ⟨1, ![100]⟩
abbrev S_ : Shape := ⟨0, ![]⟩

class Facts : Prop where
  bcast_S_S1024x10000 : S_.BroadcastsInDim S1024x10000 (![] : Fin 0 → Fin S1024x10000.rank)
  reducesTo_S1024x10000_S_d0_1 : S1024x10000.ReducesTo [0, 1] S_
  h_S_ : 0 < S_.numel
  bcast_S_S1024 : S_.BroadcastsInDim S1024 (![] : Fin 0 → Fin S1024.rank)
  reducesTo_S1024_S_d0 : S1024.ReducesTo [0] S_
  bcast_S_S100x1024 : S_.BroadcastsInDim S100x1024 (![] : Fin 0 → Fin S100x1024.rank)
  reducesTo_S100x1024_S_d0_1 : S100x1024.ReducesTo [0, 1] S_
  bcast_S_S100 : S_.BroadcastsInDim S100 (![] : Fin 0 → Fin S100.rank)
  reducesTo_S100_S_d0 : S100.ReducesTo [0] S_

variable [Facts]

def fn_part1 {F : FTy → Type} [FloatOps F] (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  main_v18

def fn {F : FTy → Type} [FloatOps F] (main_arg0 : IVec S4096x2048 32) (main_arg1 : FVec F S1024x10000 .f32) (main_arg2 : FVec F S1024 .f32) (main_arg3 : FVec F S100x1024 .f32) (main_arg4 : FVec F S100 .f32) : IVec S_ 1 :=
  let main_v0 : FVec F S1024x10000 .f32 := Host.absf main_arg1
  let main_cst : FVec F S_ .f32 := constant S_ .f32 0x7F800000#32
  let main_v1 : FVec F S1024x10000 .f32 := broadcastInDim S1024x10000 ![] bcast_S_S1024x10000 main_cst
  let main_v2 : IVec S1024x10000 1 := cmpf .olt main_v0 main_v1
  let main_c : IVec S_ 1 := constantI S_ 1 1#1
  let main_v3 : IVec S_ 1 := (fun x v => Host.reduce IntOp.andi x v reducesTo_S1024x10000_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S100x1024 .f32 := Host.absf main_arg3
  let main_cst_2 : FVec F S_ .f32 := constant S_ .f32 0x7F800000#32
  let main_v10 : FVec F S100x1024 .f32 := broadcastInDim S100x1024 ![] bcast_S_S100x1024 main_cst_2
  let main_v11 : IVec S100x1024 1 := cmpf .olt main_v9 main_v10
  let main_c_3 : IVec S_ 1 := constantI S_ 1 1#1
  let main_v12 : IVec S_ 1 := (fun x v => Host.reduce IntOp.andi x v reducesTo_S100x1024_S_d0_1 h_S_) main_v11 main_c_3
  let main_v13 : IVec S_ 1 := andi main_v8 main_v12
  let main_v14 : FVec F S100 .f32 := Host.absf main_arg4
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_v13 main_v16
-- ==== Kernel.lean ====
abbrev S4096x2048 : Shape := ⟨2, ![4096, 2048]⟩
abbrev S1024x10000 : Shape := ⟨2, ![1024, 10000]⟩
abbrev S1024 : Shape := ⟨1, ![1024]⟩
abbrev S100x1024 : Shape := ⟨2, ![100, 1024]⟩
abbrev S100 : Shape := ⟨1, ![100]⟩
abbrev S_ : Shape := ⟨0, ![]⟩
abbrev S4096x10000 : Shape := ⟨2, ![4096, 10000]⟩
abbrev S4096 : Shape := ⟨1, ![4096]⟩
abbrev S4096x1 : Shape := ⟨2, ![4096, 1]⟩
abbrev S4096x2048x1 : Shape := ⟨3, ![4096, 2048, 1]⟩
abbrev S4096x2048x2 : Shape := ⟨3, ![4096, 2048, 2]⟩
abbrev S4096x10240 : Shape := ⟨2, ![4096, 10240]⟩
abbrev S1024x10240 : Shape := ⟨2, ![1024, 10240]⟩
abbrev S1x1024 : Shape := ⟨2, ![1, 1024]⟩
abbrev S1x100 : Shape := ⟨2, ![1, 100]⟩
abbrev S4096x100 : Shape := ⟨2, ![4096, 100]⟩
abbrev S1024x2560 : Shape := ⟨2, ![1024, 2560]⟩
abbrev S1024x100 : Shape := ⟨2, ![1024, 100]⟩
abbrev S1024x1024 : Shape := ⟨2, ![1024, 1024]⟩

abbrev nBuf : Space → Nat
  | .hbm => 42
  | .vmem => 10
  | .smem => 0
  | _ => 0

abbrev bufTy : (tb : Table) → Fin (tcTables nBuf tb) → BufTy
  | .hbm, ⟨0, _⟩ => ⟨S4096x2048, .i32⟩
  | .hbm, ⟨1, _⟩ => ⟨S1024x10000, .f32⟩
  | .hbm, ⟨2, _⟩ => ⟨S1024, .f32⟩
  | .hbm, ⟨3, _⟩ => ⟨S100x1024, .f32⟩
  | .hbm, ⟨4, _⟩ => ⟨S100, .f32⟩
  | .hbm, ⟨5, _⟩ => ⟨S_, .f32⟩
  | .hbm, ⟨6, _⟩ => ⟨S4096x10000, .f32⟩
  | .hbm, ⟨7, _⟩ => ⟨S4096, .i32⟩
  | .hbm, ⟨8, _⟩ => ⟨S4096x1, .i32⟩
  | .hbm, ⟨9, _⟩ => ⟨S_, .i32⟩
  | .hbm, ⟨10, _⟩ => ⟨S4096x1, .i32⟩
  | .hbm, ⟨11, _⟩ => ⟨S4096x1, .i1⟩
  | .hbm, ⟨12, _⟩ => ⟨S_, .i32⟩
  | .hbm, ⟨13, _⟩ => ⟨S4096x1, .i32⟩
  | .hbm, ⟨14, _⟩ => ⟨S4096x1, .i32⟩
  | .hbm, ⟨15, _⟩ => ⟨S4096x1, .i32⟩
  | .hbm, ⟨16, _⟩ => ⟨S_, .i32⟩
  | .hbm, ⟨17, _⟩ => ⟨S4096x2048, .i32⟩
  | .hbm, ⟨18, _⟩ => ⟨S4096x2048, .i1⟩
  | .hbm, ⟨19, _⟩ => ⟨S_, .i32⟩
  | .hbm, ⟨20, _⟩ => ⟨S4096x2048, .i32⟩
  | .hbm, ⟨21, _⟩ => ⟨S4096x2048, .i32⟩
  | .hbm, ⟨22, _⟩ => ⟨S4096x2048, .i32⟩
  | .hbm, ⟨23, _⟩ => ⟨S4096x2048, .i32⟩
  | .hbm, ⟨24, _⟩ => ⟨S4096x2048x1, .i32⟩
  | .hbm, ⟨25, _⟩ => ⟨S4096x2048x1, .i32⟩
  | .hbm, ⟨26, _⟩ => ⟨S4096x2048x2, .i32⟩
  | .hbm, ⟨27, _⟩ => ⟨S_, .f32⟩
  | .hbm, ⟨28, _⟩ => ⟨S4096x2048, .f32⟩
  | .hbm, ⟨29, _⟩ => ⟨S4096x10000, .f32⟩
  | .hbm, ⟨30, _⟩ => ⟨S_, .i32⟩
  | .hbm, ⟨31, _⟩ => ⟨S_, .f32⟩
  | .hbm, ⟨32, _⟩ => ⟨S4096x10240, .f32⟩
  | .hbm, ⟨33, _⟩ => ⟨S4096x10240, .bf16⟩
  | .hbm, ⟨34, _⟩ => ⟨S_, .i32⟩
  | .hbm, ⟨35, _⟩ => ⟨S_, .f32⟩
  | .hbm, ⟨36, _⟩ => ⟨S1024x10240, .f32⟩
  | .hbm, ⟨37, _⟩ => ⟨S1024x10240, .bf16⟩
  | .hbm, ⟨38, _⟩ => ⟨S100x1024, .bf16⟩
  | .hbm, ⟨39, _⟩ => ⟨S1x1024, .f32⟩
  | .hbm, ⟨40, _⟩ => ⟨S1x100, .f32⟩
  | .hbm, ⟨41, _⟩ => ⟨S4096x100, .f32⟩
  | .local _ .vmem, ⟨0, _⟩ => ⟨S1024x2560, .bf16⟩
  | .local _ .vmem, ⟨1, _⟩ => ⟨S1024x2560, .bf16⟩
  | .local _ .vmem, ⟨2, _⟩ => ⟨S1024x2560, .bf16⟩
  | .local _ .vmem, ⟨3, _⟩ => ⟨S1024x2560, .bf16⟩
  | .local _ .vmem, ⟨4, _⟩ => ⟨S100x1024, .bf16⟩
  | .local _ .vmem, ⟨5, _⟩ => ⟨S1x1024, .f32⟩
  | .local _ .vmem, ⟨6, _⟩ => ⟨S1x100, .f32⟩
  | .local _ .vmem, ⟨7, _⟩ => ⟨S1024x100, .f32⟩
  | .local _ .vmem, ⟨8, _⟩ => ⟨S1024x100, .f32⟩
  | .local _ .vmem, ⟨9, _⟩ => ⟨S1024x1024, .f32⟩
  | _, _ => ⟨S4096x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_call1_v0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S100x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x100 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S4096x10000 : S_.BroadcastsInDim S4096x10000 (![] : Fin 0 → Fin S4096x10000.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S_S4096x2048 : S_.BroadcastsInDim S4096x2048 (![] : Fin 0 → Fin S4096x2048.rank)
  bcast_S4096x1_S4096x2048_0_1 : S4096x1.BroadcastsInDim S4096x2048 (![0, 1] : Fin 2 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  pads_S4096x10000_S4096x10240_000_02400 : S4096x10000.Pads (![0, 0] : Fin 2 → Nat) ![0, 240] ![0, 0] S4096x10240
  h_S_ : 0 < S_.numel
  bitsLt_bf16_f32 : FTy.bits .bf16 < FTy.bits .f32
  pads_S1024x10000_S1024x10240_000_02400 : S1024x10000.Pads (![0, 0] : Fin 2 → Nat) ![0, 240] ![0, 0] S1024x10240
  shapeCasts_S1024_S1x1024 : S1024.ShapeCasts S1x1024
  shapeCasts_S100_S1x100 : S100.ShapeCasts S1x100
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2560_S1024x2560_0_0 : ∀ a, (![0, 0] : Fin 2 → Nat) a + S1024x2560.size a ≤ S1024x2560.size a
  h_S1024x2560 : 0 < S1024x2560.numel
  shapeCasts_S1024x2560_S1024x2560 : S1024x2560.ShapeCasts S1024x2560
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S100x1024_S100x1024_0_0 : ∀ a, (![0, 0] : Fin 2 → Nat) a + S100x1024.size a ≤ S100x1024.size a
  h_S100x1024 : 0 < S100x1024.numel
  shapeCasts_S100x1024_S100x1024 : S100x1024.ShapeCasts S100x1024
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S1024x100 : S1x100.Broadcasts S1024x100
  inb_S1024x100_S1024x100_0_0 : ∀ a, (![0, 0] : Fin 2 → Nat) a + S1024x100.size a ≤ S1024x100.size a
  h_S1024x100 : 0 < S1024x100.numel
  scatter_S4096x10000_S4096x2048x2_S4096x2048_n_01_01_2_wf : ScatterDims.WF S4096x10000 S4096x2048x2 S4096x2048 [] [0, 1] [0, 1] 2
  dot_S1024x2560_S1024x2560_S1024x1024_1_1_0_0_n_n_wf : DotDims.WF S1024x2560 S1024x2560 S1024x1024 [1] [1] [0] [0] [] []
  dot_S1024x1024_S100x1024_S1024x100_1_1_0_0_n_n_wf : DotDims.WF S1024x1024 S100x1024 S1024x100 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2560.size a ≤ S4096x10240.size a
  hwx0_0 : ∀ i : grid0.Coords, EltTy.bits .bf16 = 32 ∨ (Rect.block (s := S4096x10240) S1024x2560.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2560.size a ≤ S1024x10240.size a
  hwx0_1 : ∀ i : grid0.Coords, EltTy.bits .bf16 = 32 ∨ (Rect.block (s := S1024x10240) S1024x2560.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x1024.size a ≤ S100x1024.size a
  hwx0_2 : ∀ i : grid0.Coords, EltTy.bits .bf16 = 32 ∨ (Rect.block (s := S100x1024) S100x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x100.size a ≤ S1x100.size a
  hwx0_4 : ∀ i : grid0.Coords, EltTy.bits .f32 = 32 ∨ (Rect.block (s := S1x100) S1x100.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x100.size a ≤ S4096x100.size a
  hwx0_5 : ∀ i : grid0.Coords, EltTy.bits .f32 = 32 ∨ (Rect.block (s := S4096x100) S1024x100.size (cc0_transform_5 i) (hinb0_5 i)).WholeWords (EltTy.packing .f32)

variable [Facts₀]

def scatter_S4096x10000_S4096x2048x2_S4096x2048_n_01_01_2 : ScatterDims S4096x10000 S4096x2048x2 S4096x2048 where
  updateWindowDims := []
  insertedWindowDims := [0, 1]
  scatterDimsToOperandDims := [0, 1]
  indexVectorDim := 2
  wf := scatter_S4096x10000_S4096x2048x2_S4096x2048_n_01_01_2_wf
def dot_S1024x2560_S1024x2560_S1024x1024_1_1_0_0_n_n : DotDims S1024x2560 S1024x2560 S1024x1024 where
  lhsContracting := [1]
  rhsContracting := [1]
  lhsNonContracting := [0]
  rhsNonContracting := [0]
  lhsBatch := []
  rhsBatch := []
  wf := dot_S1024x2560_S1024x2560_S1024x1024_1_1_0_0_n_n_wf
def dot_S1024x1024_S100x1024_S1024x100_1_1_0_0_n_n : DotDims S1024x1024 S100x1024 S1024x100 where
  lhsContracting := [1]
  rhsContracting := [1]
  lhsNonContracting := [0]
  rhsNonContracting := [0]
  lhsBatch := []
  rhsBatch := []
  wf := dot_S1024x1024_S100x1024_S1024x100_1_1_0_0_n_n_wf

abbrev win0_0 : Pipeline.Window sig grid0 :=
  Pipeline.Window.ofSpec (Memref.whole main_v20) S1024x2560.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1024x2560.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S100x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1024x100.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x2048 : Shape := ⟨2, ![4096, 2048]⟩
abbrev S1024x10000 : Shape := ⟨2, ![1024, 10000]⟩
abbrev S1024 : Shape := ⟨1, ![1024]⟩
abbrev S100x1024 : Shape := ⟨2, ![100, 1024]⟩
abbrev S100 : Shape := ⟨1, ![100]⟩
abbrev S_ : Shape := ⟨0, ![]⟩
abbrev S4096x10000 : Shape := ⟨2, ![4096, 10000]⟩
abbrev S4096 : Shape := ⟨1, ![4096]⟩
abbrev S4096x1 : Shape := ⟨2, ![4096, 1]⟩
abbrev S4096x2048x1 : Shape := ⟨3, ![4096, 2048, 1]⟩
abbrev S4096x2048x2 : Shape := ⟨3, ![4096, 2048, 2]⟩
abbrev S10000x1024 : Shape := ⟨2, ![10000, 1024]⟩
abbrev S4096x1024 : Shape := ⟨2, ![4096, 1024]⟩
abbrev S1x1024 : Shape := ⟨2, ![1, 1024]⟩
abbrev S1024x100 : Shape := ⟨2, ![1024, 100]⟩
abbrev S4096x100 : Shape := ⟨2, ![4096, 100]⟩
abbrev S1x100 : Shape := ⟨2, ![1, 100]⟩

abbrev nBuf : Space → Nat
  | .hbm => 40
  | .vmem => 0
  | .smem => 0
  | _ => 0

abbrev bufTy : (tb : Table) → Fin (tcTables nBuf tb) → BufTy
  | .hbm, ⟨0, _⟩ => ⟨S4096x2048, .i32⟩
  | .hbm, ⟨1, _⟩ => ⟨S1024x10000, .f32⟩
  | .hbm, ⟨2, _⟩ => ⟨S1024, .f32⟩
  | .hbm, ⟨3, _⟩ => ⟨S100x1024, .f32⟩
  | .hbm, ⟨4, _⟩ => ⟨S100, .f32⟩
  | .hbm, ⟨5, _⟩ => ⟨S_, .f32⟩
  | .hbm, ⟨6, _⟩ => ⟨S4096x10000, .f32⟩
  | .hbm, ⟨7, _⟩ => ⟨S4096, .i32⟩
  | .hbm, ⟨8, _⟩ => ⟨S4096x1, .i32⟩
  | .hbm, ⟨9, _⟩ => ⟨S_, .i32⟩
  | .hbm, ⟨10, _⟩ => ⟨S4096x1, .i32⟩
  | .hbm, ⟨11, _⟩ => ⟨S4096x1, .i1⟩
  | .hbm, ⟨12, _⟩ => ⟨S_, .i32⟩
  | .hbm, ⟨13, _⟩ => ⟨S4096x1, .i32⟩
  | .hbm, ⟨14, _⟩ => ⟨S4096x1, .i32⟩
  | .hbm, ⟨15, _⟩ => ⟨S4096x1, .i32⟩
  | .hbm, ⟨16, _⟩ => ⟨S_, .i32⟩
  | .hbm, ⟨17, _⟩ => ⟨S4096x2048, .i32⟩
  | .hbm, ⟨18, _⟩ => ⟨S4096x2048, .i1⟩
  | .hbm, ⟨19, _⟩ => ⟨S_, .i32⟩
  | .hbm, ⟨20, _⟩ => ⟨S4096x2048, .i32⟩
  | .hbm, ⟨21, _⟩ => ⟨S4096x2048, .i32⟩
  | .hbm, ⟨22, _⟩ => ⟨S4096x2048, .i32⟩
  | .hbm, ⟨23, _⟩ => ⟨S4096x2048, .i32⟩
  | .hbm, ⟨24, _⟩ => ⟨S4096x2048x1, .i32⟩
  | .hbm, ⟨25, _⟩ => ⟨S4096x2048x1, .i32⟩
  | .hbm, ⟨26, _⟩ => ⟨S4096x2048x2, .i32⟩
  | .hbm, ⟨27, _⟩ => ⟨S_, .f32⟩
  | .hbm, ⟨28, _⟩ => ⟨S4096x2048, .f32⟩
  | .hbm, ⟨29, _⟩ => ⟨S4096x10000, .f32⟩
  | .hbm, ⟨30, _⟩ => ⟨S10000x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S1024x100, .f32⟩
  | .hbm, ⟨36, _⟩ => ⟨S4096x100, .f32⟩
  | .hbm, ⟨37, _⟩ => ⟨S1x100, .f32⟩
  | .hbm, ⟨38, _⟩ => ⟨S4096x100, .f32⟩
  | .hbm, ⟨39, _⟩ => ⟨S4096x100, .f32⟩
  | _, _ => ⟨S4096x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  bcast_S_S4096x10000 : S_.BroadcastsInDim S4096x10000 (![] : Fin 0 → Fin S4096x10000.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S_S4096x2048 : S_.BroadcastsInDim S4096x2048 (![] : Fin 0 → Fin S4096x2048.rank)
  bcast_S4096x1_S4096x2048_0_1 : S4096x1.BroadcastsInDim S4096x2048 (![0, 1] : Fin 2 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  transposes_S1024x10000_S10000x1024_1_0 : S1024x10000.Transposes [1, 0] S10000x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S100x1024_S1024x100_1_0 : S100x1024.Transposes [1, 0] S1024x100
  bcast_S100_S1x100_1 : S100.BroadcastsInDim S1x100 (![1] : Fin 1 → Fin S1x100.rank)
  bcast_S1x100_S4096x100_0_1 : S1x100.BroadcastsInDim S4096x100 (![0, 1] : Fin 2 → Fin S4096x100.rank)
  scatter_S4096x10000_S4096x2048x2_S4096x2048_n_01_01_2_wf : ScatterDims.WF S4096x10000 S4096x2048x2 S4096x2048 [] [0, 1] [0, 1] 2
  dot_S4096x10000_S10000x1024_S4096x1024_1_0_0_1_n_n_wf : DotDims.WF S4096x10000 S10000x1024 S4096x1024 [1] [0] [0] [1] [] []
  dot_S4096x1024_S1024x100_S4096x100_1_0_0_1_n_n_wf : DotDims.WF S4096x1024 S1024x100 S4096x100 [1] [0] [0] [1] [] []

variable [Facts₀]

def scatter_S4096x10000_S4096x2048x2_S4096x2048_n_01_01_2 : ScatterDims S4096x10000 S4096x2048x2 S4096x2048 where
  updateWindowDims := []
  insertedWindowDims := [0, 1]
  scatterDimsToOperandDims := [0, 1]
  indexVectorDim := 2
  wf := scatter_S4096x10000_S4096x2048x2_S4096x2048_n_01_01_2_wf
def dot_S4096x10000_S10000x1024_S4096x1024_1_0_0_1_n_n : DotDims S4096x10000 S10000x1024 S4096x1024 where
  lhsContracting := [1]
  rhsContracting := [0]
  lhsNonContracting := [0]
  rhsNonContracting := [1]
  lhsBatch := []
  rhsBatch := []
  wf := dot_S4096x10000_S10000x1024_S4096x1024_1_0_0_1_n_n_wf
def dot_S4096x1024_S1024x100_S4096x100_1_0_0_1_n_n : DotDims S4096x1024 S1024x100 S4096x100 where
  lhsContracting := [1]
  rhsContracting := [0]
  lhsNonContracting := [0]
  rhsNonContracting := [1]
  lhsBatch := []
  rhsBatch := []
  wf := dot_S4096x1024_S1024x100_S4096x100_1_0_0_1_n_n_wf

class Facts : Prop extends Facts₀ where

variable [Facts]
-- ==== Proof.LibTileSum.lean ====
import Mathlib.Algebra.BigOperators.Fin
import Mathlib.Algebra.BigOperators.Intervals

/-!
# A sum over a range cut into tiles, the last one ragged

In any commutative additive monoid — the extended reals among them, where nothing beyond commutativity and
associativity of `+` is available — a sum over `k < T · B` is the sum over the `T` tiles of the sums over the
`B` positions inside each tile, and a summand that vanishes from `n` on may be summed to any bound past `n`.
Together: a contraction of length `n` walked in `T` tiles of `B ≥ n / T`, the overhang contributing zeros, is the
contraction.
-/

namespace TileSum

open Finset

variable {M : Type*} [AddCommMonoid M]

/-- A sum over `k < T · B` is the sum over the tiles `t < T` of the sums over the positions `j < B` of tile `t`. -/
theorem sum_range_tiles (g : ℕ → M) (B : ℕ) : ∀ T : ℕ, ∑ k ∈ range (T * B), g k = ∑ t ∈ range T, ∑ j ∈ range B, g (t * B + j)
  | 0 => by simp
  | T + 1 => by
    rw [Nat.succ_mul, sum_range_add, sum_range_tiles g B T, sum_range_succ]

/-- A summand that is zero from `n` on sums, to any bound `N ≥ n`, to its sum below `n`. -/
theorem sum_range_zero_tail (g : ℕ → M) {n N : ℕ} (h : n ≤ N) (hz : ∀ k, n ≤ k → g k = 0) :
    ∑ k ∈ range N, g k = ∑ k ∈ range n, g k := by
  obtain ⟨r, rfl⟩ := Nat.exists_eq_add_of_le h
  rw [sum_range_add, sum_eq_zero (fun x _ => hz (n + x) (Nat.le_add_right n x)), add_zero]

/-- A contraction over `Fin n` is the sum over `T` tiles of `B` positions of its summand extended by zero past `n`. -/
theorem sum_fin_eq_tiles {n T B : ℕ} (h : n ≤ T * B) (f : Fin n → M) :
    ∑ k : Fin n, f k = ∑ t ∈ range T, ∑ j ∈ range B, (if hk : t * B + j < n then f ⟨t * B + j, hk⟩ else 0) := by
  rw [← sum_range_tiles (fun k => if hk : k < n then f ⟨k, hk⟩ else 0) B T,
    sum_range_zero_tail _ h (fun k hk => dif_neg (Nat.not_lt.mpr hk)), ← Fin.sum_univ_eq_sum_range (fun k => if hk : k < n then f ⟨k, hk⟩ else 0) n]
  exact Fintype.sum_congr _ _ fun k => by rw [dif_pos k.isLt]

end TileSum
-- ==== Proof.FfnSpec.lean ====
/-
  A two-layer feed-forward map of a histogram, and the tiled walk of its first contraction.

  For a [4096, 10000] array H, weights W1 [1024, 10000] and W2 [100, 1024] and biases b1 [1024], b2 [100],

      out[b, o] = Σ_h (Σ_c H[b, c] · W1[h, c] + b1[h]) · W2[o, h] + b2[o]

  over the extended reals. The inner contraction, of length 10000, may be walked in 4 tiles of 2560 columns over the two
  arrays extended by zero to 10240 columns: each of the 240 extra products is 0 · 0 = 0, and regrouping a finite sum uses
  only that + is commutative and associative, which holds on the extended reals with nothing asked of the entries.
-/
import Idealize.ShloMosaic.PureOps.Ideal
import Idealize.ShloMosaic.Lib.ValueIdx
import proofs.«142848_j8658654069091_1_alg».proof.Proof.LibTileSum

noncomputable section

open scoped BigOperators

namespace Ffn

open Idealize.ShloMosaic Idealize.ShloMosaic.ValueIdx

/-- The hidden layer: hid[b, h] = Σ_c H[b, c] · W1[h, c] + b1[h]. -/
def hid (H : FVec Ideal ⟨2, ![4096, 10000]⟩ .f32) (W1 : FVec Ideal ⟨2, ![1024, 10000]⟩ .f32)
    (b1 : FVec Ideal ⟨1, ![1024]⟩ .f32) (b : Fin 4096) (h : Fin 1024) : Ideal .f32 :=
  (∑ c : Fin 10000, H (ix2 b c) * W1 (ix2 h c)) + b1 (ix1 h)

/-- The output layer: out[b, o] = Σ_h hid[b, h] · W2[o, h] + b2[o]. -/
def out (H : FVec Ideal ⟨2, ![4096, 10000]⟩ .f32) (W1 : FVec Ideal ⟨2, ![1024, 10000]⟩ .f32)
    (b1 : FVec Ideal ⟨1, ![1024]⟩ .f32) (W2 : FVec Ideal ⟨2, ![100, 1024]⟩ .f32) (b2 : FVec Ideal ⟨1, ![100]⟩ .f32) :
    FVec Ideal ⟨2, ![4096, 100]⟩ .f32 := fun i =>
  (∑ h : Fin 1024, hid H W1 b1 (i 0) h * W2 (ix2 (i 1) h)) + b2 (ix1 (i 1))

/-- An array [A, 10000] read at natural coordinates, zero off the array: from column 10000 on this is the zero padding. -/
def ext {A : ℕ} (X : FVec Ideal ⟨2, ![A, 10000]⟩ .f32) (r c : ℕ) : Ideal .f32 :=
  if h : r < A ∧ c < 10000 then X (ix2 ⟨r, h.1⟩ ⟨c, h.2⟩) else 0

theorem ext_of_lt {A : ℕ} (X : FVec Ideal ⟨2, ![A, 10000]⟩ .f32) (r c : ℕ) (hr : r < A) (hc : c < 10000) :
    ext X r c = X (ix2 ⟨r, hr⟩ ⟨c, hc⟩) := dif_pos ⟨hr, hc⟩

theorem ext_of_ge {A : ℕ} (X : FVec Ideal ⟨2, ![A, 10000]⟩ .f32) (r c : ℕ) (hc : 10000 ≤ c) : ext X r c = 0 :=
  dif_neg fun h => absurd h.2 (Nat.not_lt.mpr hc)

/-- Tile n = 4 i + k of the walk, at entry (p, h): rows 1024 i + p of the padded H against row h of the padded W1, over the
    2560 columns from 2560 k on. -/
def tile (H : FVec Ideal ⟨2, ![4096, 10000]⟩ .f32) (W1 : FVec Ideal ⟨2, ![1024, 10000]⟩ .f32) (n : ℕ) :
    FVec Ideal ⟨2, ![1024, 1024]⟩ .f32 := fun y =>
  ∑ j : Fin 2560, ext H (n / 4 * 1024 + (y 0).val) (n % 4 * 2560 + j.val) * ext W1 (y 1).val (n % 4 * 2560 + j.val)

/-- THE WALK IS THE CONTRACTION: the four tiles of row block i sum, at (p, h), to Σ_c H[1024 i + p, c] · W1[h, c]. -/
theorem tiles_sum (H : FVec Ideal ⟨2, ![4096, 10000]⟩ .f32) (W1 : FVec Ideal ⟨2, ![1024, 10000]⟩ .f32)
    (i : ℕ) (p h : Fin 1024) (hb : i * 1024 + p.val < 4096) :
    ∑ s ∈ Finset.range 4, tile H W1 (4 * i + s) (ix2 p h)
      = ∑ c : Fin 10000, H (ix2 ⟨i * 1024 + p.val, hb⟩ c) * W1 (ix2 h c) := by
  rw [TileSum.sum_fin_eq_tiles (n := 10000) (T := 4) (B := 2560) (by norm_num)]
  refine Finset.sum_congr rfl fun s hs => ?_
  have hs4 : s < 4 := Finset.mem_range.mp hs
  have e1 : (4 * i + s) / 4 = i := by omega
  have e2 : (4 * i + s) % 4 = s := by omega
  unfold tile
  rw [Finset.sum_range, e1, e2]
  refine Finset.sum_congr rfl fun j _ => ?_
  show ext H (i * 1024 + p.val) (s * 2560 + j.val) * ext W1 h.val (s * 2560 + j.val) = _
  by_cases hk : s * 2560 + j.val < 10000
  · rw [dif_pos hk, ext_of_lt H _ _ hb hk, ext_of_lt W1 _ _ h.isLt hk]
  · rw [dif_neg hk, ext_of_ge H _ _ (Nat.le_of_not_lt hk), zero_mul]

end Ffn

end
-- ==== Proof.RefIsSpec.lean ====
/-
  The reference, read index by index, is the feed-forward map of its own histogram.

  The reference transposes each weight matrix and contracts the histogram's column axis with the transposed matrix's row
  axis; read at an entry this is the contraction of the two matrices' LAST axes, Σ_c H[b, c] · W1[h, c], and likewise for the
  second layer. The bias rows are broadcast down the batch axis. So its result at (b, o) is
  Σ_h (Σ_c H[b, c] · W1[h, c] + b1[h]) · W2[o, h] + b2[o], with H the scatter-add stage, kept as one unopened term.
-/
import proofs.«142848_j8658654069091_1_alg».proof.Proof.Gen.ReferenceIdeal.Read
import proofs.«142848_j8658654069091_1_alg».proof.Proof.FfnSpec

noncomputable section

open scoped BigOperators

namespace Cert.ReferenceIdeal.RefValue

open Cert.ReferenceIdeal Cert.ReferenceIdeal.Read Idealize.ShloMosaic Idealize.ShloMosaic.ValueIdx

/-- The histogram's entry the first contraction reads at hidden entry (b, h) and column c is H[b, c]; -/
theorem hist_idx (b : Fin 4096) (o : Fin 100) (h : Fin 1024) (c : Fin 10000) :
    lidx_main_v20 (lidx_main_v25 (ix2 b o) h) c = ix2 b c :=
  funext fun a => Fin.ext (by match a with | ⟨0, _⟩ => rfl | ⟨1, _⟩ => rfl)

/-- the first weight's, through the transpose, is W1[h, c]; -/
theorem w1_idx (b : Fin 4096) (o : Fin 100) (h : Fin 1024) (c : Fin 10000) :
    idx_main_v19 (ridx_main_v20 (lidx_main_v25 (ix2 b o) h) c) = ix2 h c :=
  funext fun a => Fin.ext (by match a with | ⟨0, _⟩ => rfl | ⟨1, _⟩ => rfl)

/-- the first bias, through its two broadcasts, is b1[h]; -/
theorem b1_idx (b : Fin 4096) (o : Fin 100) (h : Fin 1024) :
    idx_main_v21 (idx_main_v22 (lidx_main_v25 (ix2 b o) h)) = ix1 h :=
  funext fun a => Fin.ext (by match a with | ⟨0, _⟩ => rfl)

/-- the second weight's, through the transpose, is W2[o, h]; -/
theorem w2_idx (b : Fin 4096) (o : Fin 100) (h : Fin 1024) :
    idx_main_v24 (ridx_main_v25 (ix2 b o) h) = ix2 o h :=
  funext fun a => Fin.ext (by match a with | ⟨0, _⟩ => rfl | ⟨1, _⟩ => rfl)

/-- and the second bias is b2[o]. -/
theorem b2_idx (b : Fin 4096) (o : Fin 100) : idx_main_v26 (idx_main_v27 (ix2 b o)) = ix1 o :=
  funext fun a => Fin.ext (by match a with | ⟨0, _⟩ => rfl)

/-- THE REFERENCE IS THE FEED-FORWARD MAP of its histogram stage and the four float arguments. -/
theorem result_eq (x0 : (⟨S4096x2048, .i32⟩ : BufTy).Contents (Elt Ideal)) (x1 : FVec Ideal S1024x10000 .f32)
    (x2 : FVec Ideal S1024 .f32) (x3 : FVec Ideal S100x1024 .f32) (x4 : FVec Ideal S100 .f32) :
    val_main_v28 (F := Ideal) x0 x1 x2 x3 x4 = Ffn.out (val_main_v18 (F := Ideal) x0) x1 x2 x3 x4 := by
  funext i
  obtain ⟨b, o, rfl⟩ : ∃ (b : Fin 4096) (o : Fin 100), i = ix2 b o := ⟨i 0, i 1, eq_ix2 i⟩
  rw [val_main_v28_apply, val_main_v25_apply, val_main_v27_apply, val_main_v26_apply, b2_idx]
  unfold Ffn.out Ffn.hid
  refine congrArg₂ (· + ·) (Finset.sum_congr rfl fun h _ => ?_) rfl
  rw [val_main_v23_apply, val_main_v20_apply, val_main_v22_apply, val_main_v21_apply, val_main_v24_apply, b1_idx, w2_idx]
  refine congrArg₂ (· * ·) (congrArg₂ (· + ·) (Finset.sum_congr rfl fun c _ => ?_) rfl) rfl
  rw [val_main_v19_apply, hist_idx, w1_idx]

end Cert.ReferenceIdeal.RefValue

end
-- ==== Proof.HostSide.lean ====
/-
  What the kernel's region finds in its five input arrays.

  Before the region the host builds the histogram H by the same scatter-add the reference uses (the reference's own stage,
  applied to this program's token array, names it here: it is never opened), pads H and W1 on the column axis from 10000 to
  10240 with the integer 0 converted to a float, rounds both and W2 to a narrower format — the identity over the extended
  reals — and reshapes the two bias vectors to one-row matrices.
-/
import proofs.«142848_j8658654069091_1_alg».proof.Proof.Gen.KernelIdeal.Frame
import proofs.«142848_j8658654069091_1_alg».proof.Proof.Gen.ReferenceIdeal.Read
import proofs.«142848_j8658654069091_1_alg».proof.Proof.FfnSpec
import Idealize.ShloMosaic.Lib.StableHlo.Run
import Idealize.ShloMosaic.Lib.KernelVsHost
import Idealize.ShloMosaic.Lib.ValueLayout

noncomputable section

open Idealize.ShloMosaic Idealize.ShloMosaic.TcCoe Idealize.SL.Sem

namespace Cert.KernelIdeal.HostSide

open Cert.KernelIdeal Cert.KernelIdeal.Gen Idealize.ShloMosaic.ValueIdx

variable {F : FTy → Type} [FloatOps F]
variable (m : (ℓ : Loc nD τ sig) → Buf (Elt F) ℓ)

/-- The histogram of this program's token array: the reference's scatter-add stage, unopened. -/
abbrev hist (c : Dev nD) : FVec F S4096x10000 .f32 :=
  Cert.ReferenceIdeal.Read.val_main_v18 (F := F) (m ((c : Thread nD τ).loc main_arg0))

/-- Window 0's array: the histogram padded to 10240 columns, rounded. -/
theorem V_hist (c : Dev nD) : (V m c main_v20 : FVec F S4096x10240 .bf16)
    = truncf .bf16 (pad S4096x10240 ![0, 0] ![0, 240] ![0, 0] (hist m c) (sitofp (F := F) .f32 (constantI S_ 32 0#32))
        pads_S4096x10000_S4096x10240_000_02400 h_S_) bitsLt_bf16_f32 := by
  dsimp only [V]
  simp only [hostOps0, hostOps0_1, hostOps0_2, hostOps0_3, hostOps0_4, List.flatten_cons, List.flatten_nil, List.append_nil,
    List.cons_append, List.nil_append]
  after_results_simp
  rfl

/-- Window 1's array: W1 padded to 10240 columns, rounded. -/
theorem V_w1 (c : Dev nD) : (V m c main_v22 : FVec F S1024x10240 .bf16)
    = truncf .bf16 (pad S1024x10240 ![0, 0] ![0, 240] ![0, 0] (m ((c : Thread nD τ).loc main_arg1)) (sitofp (F := F) .f32 (constantI S_ 32 0#32))
        pads_S1024x10000_S1024x10240_000_02400 h_S_) bitsLt_bf16_f32 := by
  dsimp only [V]
  simp only [hostOps0, hostOps0_1, hostOps0_2, hostOps0_3, hostOps0_4, List.flatten_cons, List.flatten_nil, List.append_nil,
    List.cons_append, List.nil_append]
  after_results
  rfl

/-- Window 2's array: W2, rounded. -/
theorem V_w2 (c : Dev nD) : (V m c main_v23 : FVec F S100x1024 .bf16)
    = truncf .bf16 (m ((c : Thread nD τ).loc main_arg3)) bitsLt_bf16_f32 := by
  dsimp only [V]
  simp only [hostOps0, hostOps0_1, hostOps0_2, hostOps0_3, hostOps0_4, List.flatten_cons, List.flatten_nil, List.append_nil,
    List.cons_append, List.nil_append]
  after_results

/-- Window 3's array: b1 as one row. -/
theorem V_b1 (c : Dev nD) : (V m c main_v24 : FVec F S1x1024 .f32)
    = shapeCast S1x1024 (m ((c : Thread nD τ).loc main_arg2)) shapeCasts_S1024_S1x1024 := by
  dsimp only [V]
  simp only [hostOps0, hostOps0_1, hostOps0_2, hostOps0_3, hostOps0_4, List.flatten_cons, List.flatten_nil, List.append_nil,
    List.cons_append, List.nil_append]
  after_results
  rfl

/-- Window 4's array: b2 as one row. -/
theorem V_b2 (c : Dev nD) : (V m c main_v25 : FVec F S1x100 .f32)
    = shapeCast S1x100 (m ((c : Thread nD τ).loc main_arg4)) shapeCasts_S100_S1x100 := by
  dsimp only [V]
  simp only [hostOps0, hostOps0_1, hostOps0_2, hostOps0_3, hostOps0_4, List.flatten_cons, List.flatten_nil, List.append_nil,
    List.cons_append, List.nil_append]
  after_results
  rfl

end Cert.KernelIdeal.HostSide

end
-- ==== Proof.Blocks.lean ====
/-
  The input windows' blocks, read at an entry.

  At grid point t = 4 i + k (row block i, column tile k) window 0's block holds rows 1024 i … of the padded histogram and
  columns 2560 k … ; window 1's holds all 1024 rows of the padded W1 and the same columns; windows 2, 3, 4 hold W2 and the two
  bias rows whole at every point. A block's entry sits in its array at block index × block size + its own coordinate on each
  axis. The padded arrays read at natural coordinates are the arrays extended by zero: inside the 10000 columns the pad is the
  operand, past them it is the padding value, the integer 0 as a float, and rounding to a narrower format is the identity.
-/
import proofs.«142848_j8658654069091_1_alg».proof.Proof.HostSide
import Idealize.ShloMosaic.Lib.Pipeline.Value

noncomputable section

open Idealize.ShloMosaic Idealize.ShloMosaic.TcCoe Idealize.SL.Sem

namespace Cert.KernelIdeal.Blocks

open Cert.KernelIdeal Cert.KernelIdeal.Gen Cert.KernelIdeal.HostSide Idealize.ShloMosaic.ValueIdx

variable (m : (ℓ : Loc nD τ sig) → Buf (Elt Ideal) ℓ)

/-- The padding value: the integer 0 converted, which is the real 0. -/
theorem pad_value (i : S_.Idx) : (sitofp (F := Ideal) .f32 (constantI S_ 32 0#32)) i = 0 := by
  show (((0#32 : BitVec 32).toInt : ℝ) : EReal) = 0
  norm_num

/-- An [A, 10000] array padded to 10240 columns and rounded, read at (r, k): the array extended by zero. -/
theorem padded_apply {A : ℕ} (X : FVec Ideal ⟨2, ![A, 10000]⟩ .f32)
    (hp : (⟨2, ![A, 10000]⟩ : Shape).Pads ![0, 0] ![0, 240] ![0, 0] ⟨2, ![A, 10240]⟩) (hu : 0 < S_.numel)
    (hb : FTy.bf16.bits < FTy.f32.bits) (r : Fin A) (k : Fin 10240) :
    (truncf .bf16 (pad ⟨2, ![A, 10240]⟩ ![0, 0] ![0, 240] ![0, 0] X (sitofp (F := Ideal) .f32 (constantI S_ 32 0#32)) hp hu) hb
      : FVec Ideal ⟨2, ![A, 10240]⟩ .bf16) (ix2 r k) = Ffn.ext X r.val k.val := by
  rw [truncf_apply]
  by_cases hk : k.val < 10000
  · rw [Ffn.ext_of_lt X _ _ r.isLt hk]
    refine pad_apply_of_inside _ _ _ X _ hp hu (ix2 r k) (ix2 ⟨r.val, r.isLt⟩ ⟨k.val, hk⟩) fun a => ?_
    match a with
    | ⟨0, _⟩ => show r.val = 0 + r.val * (0 + 1); omega
    | ⟨1, _⟩ => show k.val = 0 + k.val * (0 + 1); omega
  · rw [Ffn.ext_of_ge X _ _ (Nat.le_of_not_lt hk)]
    refine (pad_apply_of_not_inside _ _ _ X _ hp hu (ix2 r k) (1 : Fin 2) fun h => hk ?_).trans (pad_value _)
    have h3 : (k.val - 0) / (0 + 1) < 10000 := h.2.2
    omega

/-- Window 0's array at (r, k): the histogram extended by zero. -/
theorem hist_at (c : Dev nD) (r : Fin 4096) (k : Fin 10240) :
    (V m c main_v20 : FVec Ideal S4096x10240 .bf16) (ix2 r k) = Ffn.ext (hist m c) r.val k.val := by
  rw [V_hist]
  exact padded_apply (hist m c) _ _ _ r k

/-- Window 1's array at (h, k): W1 extended by zero. -/
theorem w1_at (c : Dev nD) (h : Fin 1024) (k : Fin 10240) :
    (V m c main_v22 : FVec Ideal S1024x10240 .bf16) (ix2 h k) = Ffn.ext (A := 1024) (m ((c : Thread nD τ).loc main_arg1)) h.val k.val := by
  rw [V_w1]
  exact padded_apply (A := 1024) (m ((c : Thread nD τ).loc main_arg1)) _ _ _ h k

/-- Window 2's array is W2. -/
theorem w2_at (c : Dev nD) (o : Fin 100) (h : Fin 1024) :
    (V m c main_v23 : FVec Ideal S100x1024 .bf16) (ix2 o h) = (m ((c : Thread nD τ).loc main_arg3)) (ix2 o h) := by
  rw [V_w2, truncf_apply]

/-- Window 3's array is b1 as one row. -/
theorem b1_at (c : Dev nD) (h : Fin 1024) :
    (V m c main_v24 : FVec Ideal S1x1024 .f32) (ix2 (0 : Fin 1) h) = (m ((c : Thread nD τ).loc main_arg2)) (ix1 h) := by
  rw [V_b1]
  exact shapeCast_a_1a_apply _ _ 0 h

/-- Window 4's array is b2 as one row. -/
theorem b2_at (c : Dev nD) (o : Fin 100) :
    (V m c main_v25 : FVec Ideal S1x100 .f32) (ix2 (0 : Fin 1) o) = (m ((c : Thread nD τ).loc main_arg4)) (ix1 o) := by
  rw [V_b2]
  exact shapeCast_a_1a_apply _ _ 0 o

/-! ## The index maps, decided once over the sixteen points -/

theorem idx0 : ∀ t : Fin cfg0.N, win0_0.index t (0 : Fin 2) = t.val / 4 ∧ win0_0.index t (1 : Fin 2) = t.val % 4 :=
  (by decide +kernel : ∀ t : Fin grid0.N, _)
theorem idx1 : ∀ t : Fin cfg0.N, win0_1.index t (0 : Fin 2) = 0 ∧ win0_1.index t (1 : Fin 2) = t.val % 4 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val / 4 ∧ win0_5.index t (1 : Fin 2) = 0 :=
  (by decide +kernel : ∀ t : Fin grid0.N, _)

/-! ## The blocks -/

/-- Window 0's block at point t, entry (p, k): the padded histogram at row (t / 4) · 1024 + p, column (t % 4) · 2560 + k. -/
theorem blk0 (c : Dev nD) (t : Fin cfg0.N) (p : Fin 1024) (k : Fin 2560) :
    (iblk m c 0 t : FVec Ideal S1024x2560 .bf16) (ix2 p k)
      = Ffn.ext (hist m c) (t.val / 4 * 1024 + p.val) (t.val % 4 * 2560 + k.val) := by
  have hN : t.val < 16 := lt_of_lt_of_eq t.isLt (show cfg0.N = 16 from N_0)
  have hp := p.isLt
  have hk' := k.isLt
  obtain ⟨e0, e1⟩ := idx0 t
  have hr : t.val / 4 * 1024 + p.val < 4096 := by omega
  have hk : t.val % 4 * 2560 + k.val < 10240 := by omega
  rw [← hist_at m c ⟨_, hr⟩ ⟨_, hk⟩]
  unfold iblk
  rw [View.read_apply]
  show V m c main_v20 _ = V m c main_v20 _
  refine congrArg (V m c main_v20) (funext fun a => Fin.ext ?_)
  match a with
  | ⟨0, _⟩ => show win0_0.index t (0 : Fin 2) * 1024 + 1 * p.val = t.val / 4 * 1024 + p.val; omega
  | ⟨1, _⟩ => show win0_0.index t (1 : Fin 2) * 2560 + 1 * k.val = t.val % 4 * 2560 + k.val; omega

/-- Window 1's block at point t, entry (h, k): the padded W1 at row h, column (t % 4) · 2560 + k. -/
theorem blk1 (c : Dev nD) (t : Fin cfg0.N) (h : Fin 1024) (k : Fin 2560) :
    (iblk m c 1 t : FVec Ideal S1024x2560 .bf16) (ix2 h k)
      = Ffn.ext (A := 1024) (m ((c : Thread nD τ).loc main_arg1)) h.val (t.val % 4 * 2560 + k.val) := by
  have hN : t.val < 16 := lt_of_lt_of_eq t.isLt (show cfg0.N = 16 from N_0)
  have hh := h.isLt
  have hk' := k.isLt
  obtain ⟨e0, e1⟩ := idx1 t
  have hk : t.val % 4 * 2560 + k.val < 10240 := by omega
  rw [← w1_at m c h ⟨_, hk⟩]
  unfold iblk
  rw [View.read_apply]
  show V m c main_v22 _ = V m c main_v22 _
  refine congrArg (V m c main_v22) (funext fun a => Fin.ext ?_)
  match a with
  | ⟨0, _⟩ => show win0_1.index t (0 : Fin 2) * 1024 + 1 * h.val = h.val; omega
  | ⟨1, _⟩ => show win0_1.index t (1 : Fin 2) * 2560 + 1 * k.val = t.val % 4 * 2560 + k.val; omega

/-- Window 2's block is W2 at every point. -/
theorem blk2 (c : Dev nD) (t : Fin cfg0.N) (o : Fin 100) (h : Fin 1024) :
    (iblk m c 2 t : FVec Ideal S100x1024 .bf16) (ix2 o h) = (m ((c : Thread nD τ).loc main_arg3)) (ix2 o h) := by
  obtain ⟨e0, e1⟩ := idx2 t
  rw [← w2_at m c o h]
  unfold iblk
  rw [View.read_apply]
  show V m c main_v23 _ = V m c main_v23 _
  refine congrArg (V m c main_v23) (funext fun a => Fin.ext ?_)
  match a with
  | ⟨0, _⟩ => show win0_2.index t (0 : Fin 2) * 100 + 1 * o.val = o.val; omega
  | ⟨1, _⟩ => show win0_2.index t (1 : Fin 2) * 1024 + 1 * h.val = h.val; omega

/-- Window 3's block is the row b1 at every point. -/
theorem blk3 (c : Dev nD) (t : Fin cfg0.N) (h : Fin 1024) :
    (iblk m c 3 t : FVec Ideal S1x1024 .f32) (ix2 (0 : Fin 1) h) = (m ((c : Thread nD τ).loc main_arg2)) (ix1 h) := by
  obtain ⟨e0, e1⟩ := idx3 t
  rw [← b1_at m c h]
  unfold iblk
  rw [View.read_apply]
  show V m c main_v24 _ = V m c main_v24 _
  refine congrArg (V m c main_v24) (funext fun a => Fin.ext ?_)
  match a with
  | ⟨0, _⟩ => show win0_3.index t (0 : Fin 2) * 1 + 1 * 0 = 0; omega
  | ⟨1, _⟩ => show win0_3.index t (1 : Fin 2) * 1024 + 1 * h.val = h.val; omega

/-- Window 4's block is the row b2 at every point. -/
theorem blk4 (c : Dev nD) (t : Fin cfg0.N) (o : Fin 100) :
    (iblk m c 4 t : FVec Ideal S1x100 .f32) (ix2 (0 : Fin 1) o) = (m ((c : Thread nD τ).loc main_arg4)) (ix1 o) := by
  obtain ⟨e0, e1⟩ := idx4 t
  rw [← b2_at m c o]
  unfold iblk
  rw [View.read_apply]
  show V m c main_v25 _ = V m c main_v25 _
  refine congrArg (V m c main_v25) (funext fun a => Fin.ext ?_)
  match a with
  | ⟨0, _⟩ => show win0_4.index t (0 : Fin 2) * 1 + 1 * 0 = 0; omega
  | ⟨1, _⟩ => show win0_4.index t (1 : Fin 2) * 100 + 1 * o.val = o.val; omega

end Cert.KernelIdeal.Blocks

end
-- ==== Proof.Pieces.lean ====
/-
  What each control case of the kernel body leaves behind, as the body's arithmetic.

  The body keeps a [1024, 1024] accumulator in scratch between grid points. At every point it stores
  accumulator + (histogram tile) · (weight tile)ᵀ back into the scratch; at the first point of a row block it zeroes the
  scratch first, so there the accumulator it adds to is the zero block; at the last point it also stores the output block,
  computed from the accumulator it has just stored. Each buffer is covered by ONE whole store per case, so what a case
  leaves in it is that store's value, with every load reading a whole buffer.
-/
import proofs.«142848_j8658654069091_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A MIDDLE point: the scratch holding `acc` ends at acc + x0 · x1ᵀ. -/
theorem scratch_B (c : Dev nD) (i : grid0.Coords) (arg2 : Memref sig .tc .vmem S1024x2560 .bf16) (harg2 : arg2.IsWhole) (arg3 : Memref sig .tc .vmem S1024x2560 .bf16) (harg3 : arg3.IsWhole) (arg4 : Memref sig .tc .vmem S100x1024 .bf16) (harg4 : arg4.IsWhole) (arg5 : Memref sig .tc .vmem S1x1024 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x1024 .f32) (harg8 : arg8.IsWhole) (hc0 : ¬cond0_0 i) (hc1 : ¬cond0_1 i) (x0 : Vec F S1024x2560 .bf16) (x1 : Vec F S1024x2560 .bf16) (x2 : Vec F S100x1024 .bf16) (x3 : Vec F S1x1024 .f32) (x4 : Vec F S1x100 .f32) (xs0 : Vec F S1024x1024 .f32) :
    sout0_B_0 c i arg2 harg2 arg3 harg3 arg4 harg4 arg5 harg5 arg6 harg6 arg7 harg7 arg8 harg8 hc0 hc1 x0 x1 x2 x3 x4 xs0 = k0_pay2 xs0 x0 x1 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  rw [View.canon_unit_zero hz]
  simp only [View.readAt_eq_ld, harg2.read_unread, harg3.read_unread, harg8.read_unread,
    View.ld_unit_zero (S := S1024x1024) hz, View.ld_unit_zero (S := S1024x2560) hz]

/-- The FIRST point of a row block: the scratch is zeroed, read back, and ends at 0 + x0 · x1ᵀ. -/
theorem scratch_A (c : Dev nD) (i : grid0.Coords) (arg2 : Memref sig .tc .vmem S1024x2560 .bf16) (harg2 : arg2.IsWhole) (arg3 : Memref sig .tc .vmem S1024x2560 .bf16) (harg3 : arg3.IsWhole) (arg4 : Memref sig .tc .vmem S100x1024 .bf16) (harg4 : arg4.IsWhole) (arg5 : Memref sig .tc .vmem S1x1024 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x1024 .f32) (harg8 : arg8.IsWhole) (hc0 : cond0_0 i) (hc1 : ¬cond0_1 i) (x0 : Vec F S1024x2560 .bf16) (x1 : Vec F S1024x2560 .bf16) (x2 : Vec F S100x1024 .bf16) (x3 : Vec F S1x1024 .f32) (x4 : Vec F S1x100 .f32) :
    sout0_A_0 c i arg2 harg2 arg3 harg3 arg4 harg4 arg5 harg5 arg6 harg6 arg7 harg7 arg8 harg8 hc0 hc1 x0 x1 x2 x3 x4 = k0_pay2 (k0_pay1 (F := F)) x0 x1 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, harg2.read_unread, harg3.read_unread, View.ld_unit_zero (S := S1024x2560) hz]

/-- The LAST point of a row block: the scratch holding `acc` ends at acc + x0 · x1ᵀ as at a middle point, -/
theorem scratch_C (c : Dev nD) (i : grid0.Coords) (arg2 : Memref sig .tc .vmem S1024x2560 .bf16) (harg2 : arg2.IsWhole) (arg3 : Memref sig .tc .vmem S1024x2560 .bf16) (harg3 : arg3.IsWhole) (arg4 : Memref sig .tc .vmem S100x1024 .bf16) (harg4 : arg4.IsWhole) (arg5 : Memref sig .tc .vmem S1x1024 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x1024 .f32) (harg8 : arg8.IsWhole) (hc0 : ¬cond0_0 i) (hc1 : cond0_1 i) (x0 : Vec F S1024x2560 .bf16) (x1 : Vec F S1024x2560 .bf16) (x2 : Vec F S100x1024 .bf16) (x3 : Vec F S1x1024 .f32) (x4 : Vec F S1x100 .f32) (xs0 : Vec F S1024x1024 .f32) :
    sout0_C_0 c i arg2 harg2 arg3 harg3 arg4 harg4 arg5 harg5 arg6 harg6 arg7 harg7 arg8 harg8 hc0 hc1 x0 x1 x2 x3 x4 xs0 = k0_pay2 xs0 x0 x1 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz]
  simp only [View.readAt_eq_ld, harg2.read_unread, harg3.read_unread, harg8.read_unread,
    View.ld_unit_zero (S := S1024x1024) hz, View.ld_unit_zero (S := S1024x2560) hz]

/-- and the output block is the epilogue of that stored accumulator: ((acc + x0 · x1ᵀ) + b1) · W2ᵀ + b2. -/
theorem out_C (c : Dev nD) (i : grid0.Coords) (arg2 : Memref sig .tc .vmem S1024x2560 .bf16) (harg2 : arg2.IsWhole) (arg3 : Memref sig .tc .vmem S1024x2560 .bf16) (harg3 : arg3.IsWhole) (arg4 : Memref sig .tc .vmem S100x1024 .bf16) (harg4 : arg4.IsWhole) (arg5 : Memref sig .tc .vmem S1x1024 .f32) (harg5 : arg5.IsWhole) (arg6 : Memref sig .tc .vmem S1x100 .f32) (harg6 : arg6.IsWhole) (arg7 : Memref sig .tc .vmem S1024x100 .f32) (harg7 : arg7.IsWhole) (arg8 : Memref sig .tc .vmem S1024x1024 .f32) (harg8 : arg8.IsWhole) (hc0 : ¬cond0_0 i) (hc1 : cond0_1 i) (x0 : Vec F S1024x2560 .bf16) (x1 : Vec F S1024x2560 .bf16) (x2 : Vec F S100x1024 .bf16) (x3 : Vec F S1x1024 .f32) (x4 : Vec F S1x100 .f32) (xs0 : Vec F S1024x1024 .f32) :
    out0_C_5 c i arg2 harg2 arg3 harg3 arg4 harg4 arg5 harg5 arg6 harg6 arg7 harg7 arg8 harg8 hc0 hc1 x0 x1 x2 x3 x4 xs0 = k0_pay3 (k0_pay2 xs0 x0 x1) x3 x2 x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz]
  simp only [View.readAt_eq_ld, harg2.read_unread, harg3.read_unread, harg4.read_unread, harg5.read_unread,
    harg6.read_unread, harg8.read_unread, View.readCov_unit_zero (S := S1024x1024) _ hz,
    View.ld_unit_zero (S := S1024x1024) hz, View.ld_unit_zero (S := S1024x2560) hz,
    View.ld_unit_zero (S := S100x1024) hz, View.ld_unit_zero (S := S1x1024) hz, View.ld_unit_zero (S := S1x100) hz]

end Cert.KernelIdeal.Pieces

end
-- ==== Proof.LibDotLastAxes.lean ====
/-
  A product of two matrices along the LAST axis of both, read at an entry.

  `x @ W.T` — a [M, K] matrix against a [N, K] matrix, contracting the K axis of each — has at (p, f) the entry
  Σ_k x[p, k] · W[f, k]. Over the extended reals this holds of the kernel's matrix unit started from the zero splat and of the
  host's `dot_general` alike, whatever order either sums in. The dimension numbers enter only through four coordinate facts
  (which operand coordinate is the result's row, the result's column, the contraction's index); a caller proves them of its
  own record and gets the entry as a sum over `Fin K`.
-/
import Idealize.ShloMosaic.PureOps.Ideal.Laws
import Idealize.ShloMosaic.Lib.ValueIdx

noncomputable section

open scoped BigOperators

namespace Idealize.ShloMosaic.DotLastAxes

open Idealize.ShloMosaic Idealize.ShloMosaic.ValueIdx

variable {M N K : ℕ} {φ₁ φ₂ : FTy}

/-- The two operand indices at result entry (p, f) and contraction coordinate k are (p, k) and (f, k). -/
theorem operand_idx (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (p : Fin M) (f : Fin N) (k : Fin K) :
    D.lhsIdx (ix2 p f) ((contrEquiv1 D K hr hs).symm k) = ix2 p k
      ∧ D.rhsIdx (ix2 p f) ((contrEquiv1 D K hr hs).symm k) = ix2 f k := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact hr0 _ _
    | ⟨1, _⟩ => exact (hr1 _ _).trans hk

/-- THE MATRIX UNIT from the zero splat: entry (p, f) is Σ_k lhs[p, k] · rhs[f, k]. -/
theorem matmul_zero_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (lhs : FVec Ideal ⟨2, ![M, K]⟩ φ₁) (rhs : FVec Ideal ⟨2, ![N, K]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 f k) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

/-- THE HOST'S `dot_general`: the same entry, the same sum. -/
theorem dotGeneral_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (sched : HostSchedule)
    (lhs : FVec Ideal ⟨2, ![M, K]⟩ φ₁) (rhs : FVec Ideal ⟨2, ![N, K]⟩ φ₂) (p : Fin M) (f : Fin N) :
    FloatOps.dotGeneral D prec sched lhs rhs (ix2 p f) = ∑ k : Fin K, lhs (ix2 p k) * rhs (ix2 f k) := by
  rw [Ideal.dotGeneral_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotLastAxes

end
-- ==== Proof.Payloads.lean ====
/-
  The body's three stored values, read at an entry over the extended reals.

  The zero block is 0 everywhere. The accumulation step, at (p, h), is acc[p, h] + Σ_k x[p, k] · w[h, k]: the matrix unit
  started from the zero splat contracts the last axis of both tiles, and a change of float format is the identity. The
  epilogue, at (p, o), is Σ_h (acc[p, h] + b1[0, h]) · w2[o, h] + b2[0, o]: the bias rows are broadcast down the block's
  rows, the rounding to a narrower format is again the identity, and the second product contracts last axes as well.
-/
import proofs.«142848_j8658654069091_1_alg».proof.Proof.Gen.KernelIdeal.Skeleton
import proofs.«142848_j8658654069091_1_alg».proof.Proof.LibDotLastAxes
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-- The first product's dimension numbers: [1024, 2560] × [1024, 2560] → [1024, 1024], last axes contracted. -/
abbrev D1 : DotDims S1024x2560 S1024x2560 S1024x1024 := dot_S1024x2560_S1024x2560_S1024x1024_1_1_0_0_n_n
/-- The second product's: [1024, 1024] × [100, 1024] → [1024, 100], last axes contracted. -/
abbrev D2 : DotDims S1024x1024 S100x1024 S1024x100 := dot_S1024x1024_S100x1024_S1024x100_1_1_0_0_n_n

theorem d1_l0 (j : S1024x1024.Idx) (q : D1.contr.Idx) : (D1.lhsIdx j q 0).val = (j 0).val := by
  unfold DotDims.lhsIdx
  rw [dif_neg (show ¬(0 : Fin S1024x2560.rank) ∈ D1.lhsBatch by decide), dif_pos (show (0 : Fin S1024x2560.rank) ∈ D1.lhsNonContracting by decide)]
  rfl
theorem d1_l1 (j : S1024x1024.Idx) (q : D1.contr.Idx) : (D1.lhsIdx j q 1).val = (q ⟨0, by decide⟩).val :=
  D1.lhsIdx_val_of_single rfl j q
theorem d1_r0 (j : S1024x1024.Idx) (q : D1.contr.Idx) : (D1.rhsIdx j q 0).val = (j 1).val := by
  unfold DotDims.rhsIdx
  rw [dif_neg (show ¬(0 : Fin S1024x2560.rank) ∈ D1.rhsBatch by decide), dif_pos (show (0 : Fin S1024x2560.rank) ∈ D1.rhsNonContracting by decide)]
  rfl
theorem d1_r1 (j : S1024x1024.Idx) (q : D1.contr.Idx) : (D1.rhsIdx j q 1).val = (q ⟨0, by decide⟩).val :=
  D1.rhsIdx_val_of_single rfl j q

theorem d2_l0 (j : S1024x100.Idx) (q : D2.contr.Idx) : (D2.lhsIdx j q 0).val = (j 0).val := by
  unfold DotDims.lhsIdx
  rw [dif_neg (show ¬(0 : Fin S1024x1024.rank) ∈ D2.lhsBatch by decide), dif_pos (show (0 : Fin S1024x1024.rank) ∈ D2.lhsNonContracting by decide)]
  rfl
theorem d2_l1 (j : S1024x100.Idx) (q : D2.contr.Idx) : (D2.lhsIdx j q 1).val = (q ⟨0, by decide⟩).val :=
  D2.lhsIdx_val_of_single rfl j q
theorem d2_r0 (j : S1024x100.Idx) (q : D2.contr.Idx) : (D2.rhsIdx j q 0).val = (j 1).val := by
  unfold DotDims.rhsIdx
  rw [dif_neg (show ¬(0 : Fin S100x1024.rank) ∈ D2.rhsBatch by decide), dif_pos (show (0 : Fin S100x1024.rank) ∈ D2.rhsNonContracting by decide)]
  rfl
theorem d2_r1 (j : S1024x100.Idx) (q : D2.contr.Idx) : (D2.rhsIdx j q 1).val = (q ⟨0, by decide⟩).val :=
  D2.rhsIdx_val_of_single rfl j q

/-- The zero block is 0 at every entry. -/
theorem pay1_apply (i : S1024x1024.Idx) : k0_pay1 (F := Ideal) i = 0 := by
  unfold k0_pay1
  rw [shapeCast_self]
  exact Ideal.ofBits_zero_f32

/-- The accumulation step at (p, h): acc[p, h] + Σ_k x[p, k] · w[h, k]. -/
theorem pay2_apply (acc : FVec Ideal S1024x1024 .f32) (x w : FVec Ideal S1024x2560 .bf16) (p h : Fin 1024) :
    k0_pay2 (F := Ideal) acc x w (ix2 p h) = acc (ix2 p h) + ∑ k : Fin 2560, x (ix2 p k) * w (ix2 h k) := by
  unfold k0_pay2
  simp only [shapeCast_self]
  rw [addf_apply]
  exact congrArg (acc (ix2 p h) + ·) (DotLastAxes.matmul_zero_apply D1 rfl rfl d1_l0 d1_l1 d1_r0 d1_r1 none x w p h)

/-- The epilogue at (p, o): Σ_h (acc[p, h] + b1[0, h]) · w2[o, h] + b2[0, o]. -/
theorem pay3_apply (acc : FVec Ideal S1024x1024 .f32) (b1r : FVec Ideal S1x1024 .f32) (w2 : FVec Ideal S100x1024 .bf16)
    (b2r : FVec Ideal S1x100 .f32) (p : Fin 1024) (o : Fin 100) :
    k0_pay3 (F := Ideal) acc b1r w2 b2r (ix2 p o)
      = (∑ h : Fin 1024, (acc (ix2 p h) + b1r (ix2 (0 : Fin 1) h)) * w2 (ix2 o h)) + b2r (ix2 (0 : Fin 1) o) := by
  unfold k0_pay3
  simp only [shapeCast_self]
  rw [addf_apply, broadcastTo_1b_ab_apply]
  refine congrArg (· + b2r (ix2 (0 : Fin 1) o)) ?_
  refine (DotLastAxes.matmul_zero_apply D2 rfl rfl d2_l0 d2_l1 d2_r0 d2_r1 none _ w2 p o).trans ?_
  refine Finset.sum_congr rfl fun h _ => ?_
  rw [truncf_apply, addf_apply, broadcastTo_1b_ab_apply]

end Cert.KernelIdeal.Payloads

end
-- ==== Proof.Fold.lean ====
/-
  The accumulator across a row block's four grid points, and the block the last point writes back.

  Grid point n = 4 i + k multiplies the (i, k) tile of the padded histogram with the k-th column tile of the padded W1 and adds
  the product to the accumulator, which the first point of the row block (k = 0) has zeroed. So after the points 4 i … 4 i + j the
  accumulator holds 0 + Σ_{s ≤ j} tile (4 i + s), and the last point (k = 3) stores its epilogue of 0 + Σ_{s < 4} tile (4 i + s),
  which is the hidden layer's contraction for rows 1024 i … by the walk law. The block written back is therefore the block of
  the feed-forward map of the histogram.
-/
import proofs.«142848_j8658654069091_1_alg».proof.Proof.Gen.KernelIdeal.Value
import proofs.«142848_j8658654069091_1_alg».proof.Proof.Blocks
import proofs.«142848_j8658654069091_1_alg».proof.Proof.Pieces
import proofs.«142848_j8658654069091_1_alg».proof.Proof.Payloads

noncomputable section

open scoped BigOperators

open Idealize.ShloMosaic Idealize.ShloMosaic.TcCoe Idealize.SL.Sem
open Idealize.ShloMosaic.Pipeline (Dat)

namespace Cert.KernelIdeal.Fold

open Cert.KernelIdeal Cert.KernelIdeal.Gen Cert.KernelIdeal.HostSide Cert.KernelIdeal.Blocks Idealize.ShloMosaic.ValueIdx

variable (m : (ℓ : Loc nD τ sig) → Buf (Elt Ideal) ℓ)

/-- This program's first weight matrix, as an array of extended reals. -/
abbrev w1 (c : Dev nD) : FVec Ideal ⟨2, ![1024, 10000]⟩ .f32 := (m ((c : Thread nD τ).loc main_arg1))

/-- Point n's addend: tile n of this program's padded histogram against its padded W1. -/
abbrev addend (c : Dev nD) (n : ℕ) : FVec Ideal S1024x1024 .f32 := Ffn.tile (hist m c) (w1 m c) n

/-- ONE ACCUMULATION STEP over blocks that sit where point n's do adds tile n. -/
theorem step_tile (H : FVec Ideal ⟨2, ![4096, 10000]⟩ .f32) (W1 : FVec Ideal ⟨2, ![1024, 10000]⟩ .f32) (n : ℕ)
    (acc : FVec Ideal S1024x1024 .f32) (x0 x1 : FVec Ideal S1024x2560 .bf16)
    (h0 : ∀ (p : Fin 1024) (k : Fin 2560), x0 (ix2 p k) = Ffn.ext H (n / 4 * 1024 + p.val) (n % 4 * 2560 + k.val))
    (h1 : ∀ (h : Fin 1024) (k : Fin 2560), x1 (ix2 h k) = Ffn.ext W1 h.val (n % 4 * 2560 + k.val))
    (y : S1024x1024.Idx) : k0_pay2 (F := Ideal) acc x0 x1 y = acc y + Ffn.tile H W1 n y := by
  obtain ⟨p, h, rfl⟩ : ∃ (p h : Fin 1024), y = ix2 p h := ⟨y 0, y 1, eq_ix2 y⟩
  rw [Payloads.pay2_apply]
  unfold Ffn.tile
  exact congrArg (acc (ix2 p h) + ·) (Finset.sum_congr rfl fun k _ => congrArg₂ (· * ·) (h0 p k) (h1 h k))

/-- At the FIRST point of a row block the scratch ends at 0 + that point's tile, whatever it held. -/
theorem sc_reset (c : Dev nD) (n : ℕ) (hb : n < cfg0.N) (acc : Vec Ideal S1024x1024 .f32) (h0 : n % 4 = 0)
    (y : S1024x1024.Idx) : Value.scAt0_0 m c n hb acc y = 0 + addend m c n y := by
  have h1 : ¬n % 4 = 3 := by omega
  unfold Value.scAt0_0
  rw [dif_pos h0, dif_neg h1, Pieces.scratch_A]
  refine (step_tile (hist m c) (w1 m c) n (k0_pay1 (F := Ideal)) (iblk m c 0 ⟨n, hb⟩) (iblk m c 1 ⟨n, hb⟩)
    (blk0 m c ⟨n, hb⟩) (blk1 m c ⟨n, hb⟩) y).trans ?_
  rw [Payloads.pay1_apply]

/-- At every OTHER point the scratch holding `acc` ends at acc + that point's tile. -/
theorem sc_step (c : Dev nD) (n : ℕ) (hb : n < cfg0.N) (acc : Vec Ideal S1024x1024 .f32) (h0 : ¬n % 4 = 0)
    (y : S1024x1024.Idx) : Value.scAt0_0 m c n hb acc y = acc y + addend m c n y := by
  unfold Value.scAt0_0
  rw [dif_neg h0]
  by_cases h1 : n % 4 = 3
  · rw [dif_pos h1, Pieces.scratch_C]
    exact step_tile (hist m c) (w1 m c) n acc (iblk m c 0 ⟨n, hb⟩) (iblk m c 1 ⟨n, hb⟩) (blk0 m c ⟨n, hb⟩) (blk1 m c ⟨n, hb⟩) y
  · rw [dif_neg h1, Pieces.scratch_B]
    exact step_tile (hist m c) (w1 m c) n acc (iblk m c 0 ⟨n, hb⟩) (iblk m c 1 ⟨n, hb⟩) (blk0 m c ⟨n, hb⟩) (blk1 m c ⟨n, hb⟩) y

/-- WHAT THE LAST POINT OF A ROW BLOCK FINDS in the scratch: 0 plus the first three tiles of the row block. -/
theorem scratch_before_last (c : Dev nD) (t : Fin cfg0.N) (h3 : t.val % 4 = 3) (y : S1024x1024.Idx) :
    (outsAt0 m c (t.val - 1) (Nat.lt_of_le_of_lt (Nat.sub_le _ _) t.isLt)).2 y
      = 0 + ∑ s ∈ Finset.range 3, addend m c (4 * (t.val / 4) + s) y := by
  have hN : t.val < 16 := lt_of_lt_of_eq t.isLt (show cfg0.N = 16 from N_0)
  have hlt : t.val - 1 < cfg0.N := Nat.lt_of_le_of_lt (Nat.sub_le _ _) t.isLt
  have e1 : (t.val - 1) % 4 + 1 = 3 := by omega
  have e2 : (t.val - 1) / 4 = t.val / 4 := by omega
  refine (congrFun (Value.soutsAt0_0_eq m c ⟨t.val - 1, hlt⟩) y).trans ?_
  refine (Pipeline.accAt_add_apply _ _ (fun _ => (0 : Ideal .f32)) (addend m c) (4 * ((t.val - 1) / 4)) 2
    (fun h i => sc_reset m c _ h _ (by omega) i)
    (fun n h acc i hl hu => sc_step m c n h acc (by omega) i) ((t.val - 1) % 4) (by omega) _ y).trans ?_
  rw [e1, e2]

end Cert.KernelIdeal.Fold

end
-- ==== Proof.KernelRun.lean ====
/-
  The kernel's result array is the feed-forward map of the histogram.

  Only the last point of each row block (k = 3) writes its output block back: rows 1024 i … 1024 i + 1023, all 100 columns. What it
  writes is the epilogue of the whole accumulated contraction, entry by entry the feed-forward map at row 1024 i + p. The four
  written blocks tile the [4096, 100] array, so the array ends holding the map everywhere.
-/
import proofs.«142848_j8658654069091_1_alg».proof.Proof.Fold

noncomputable section

open scoped BigOperators

open Idealize.ShloMosaic Idealize.ShloMosaic.TcCoe Idealize.SL.Sem
open Idealize.ShloMosaic.Pipeline (Dat)

namespace Cert.KernelIdeal.RunValue

open Cert.KernelIdeal Cert.KernelIdeal.Gen Cert.KernelIdeal.HostSide Cert.KernelIdeal.Blocks Cert.KernelIdeal.Fold
open Idealize.ShloMosaic.ValueIdx

variable (m : (ℓ : Loc nD τ sig) → Buf (Elt Ideal) ℓ) (ρ : Dev nD → PrngReg)

/-- What the result array ends holding: the feed-forward map of the histogram and the four float arguments. -/
abbrev result (c : Dev nD) : Buf (Elt Ideal) ((c : Thread nD τ).loc main_v26) :=
  Ffn.out (hist m c) (w1 m c) (m ((c : Thread nD τ).loc main_arg2)) (m ((c : Thread nD τ).loc main_arg3)) (m ((c : Thread nD τ).loc main_arg4))

/-- At the last point of row block t / 4 the accumulator the epilogue reads is, at (p, h), the hidden layer's whole
    contraction for row (t / 4) · 1024 + p: the three tiles found in the scratch, this point's tile, and the walk law. -/
theorem hidden_at (c : Dev nD) (t : Fin cfg0.N) (h3 : t.val % 4 = 3) (p h : Fin 1024) (hr : t.val / 4 * 1024 + p.val < 4096) :
    k0_pay2 (F := Ideal) (outsAt0 m c (t.val - 1) (Nat.lt_of_le_of_lt (Nat.sub_le _ _) t.isLt)).2 (iblk m c 0 t) (iblk m c 1 t) (ix2 p h)
      = ∑ k : Fin 10000, hist m c (ix2 ⟨t.val / 4 * 1024 + p.val, hr⟩ k) * w1 m c (ix2 h k) := by
  refine (step_tile (hist m c) (w1 m c) t.val _ (iblk m c 0 t) (iblk m c 1 t) (blk0 m c t) (blk1 m c t) (ix2 p h)).trans ?_
  rw [scratch_before_last m c t h3, zero_add]
  have ht : 4 * (t.val / 4) + 3 = t.val := by omega
  have hsum := Ffn.tiles_sum (hist m c) (w1 m c) (t.val / 4) p h hr
  rw [Finset.sum_range_succ _ 3, ht] at hsum
  exact hsum

/-- Where an entry (p, o) of point t's output block sits in the array: row (t / 4) · 1024 + p, column o. -/
theorem emb5 (t : Fin cfg0.N) (p : Fin 1024) (o : Fin 100) (hr : t.val / 4 * 1024 + p.val < 4096) :
    ((cfg0.win 5).blk t).view.emb (ix2 p o) = ix2 ⟨t.val / 4 * 1024 + p.val, hr⟩ o := by
  obtain ⟨e0, e1⟩ := idx5 t
  funext a
  apply Fin.ext
  match a with
  | ⟨0, _⟩ => show win0_5.index t (0 : Fin 2) * 1024 + 1 * p.val = t.val / 4 * 1024 + p.val; omega
  | ⟨1, _⟩ => show win0_5.index t (1 : Fin 2) * 100 + 1 * o.val = o.val; omega

/-- WHAT A FLUSHING POINT WRITES BACK is its block of the feed-forward map. -/
theorem flushed_eq (c : Dev nD) (t : Fin cfg0.N) (hf : (cfg0.win 5).flush t = true) :
    (dats m 0 c).flushed 5 t = ((cfg0.win 5).blk t).view.read (Elt Ideal) (result m c) := by
  have h3 : t.val % 4 = 3 := (flush0_5 t).mp hf
  have h0 : ¬t.val % 4 = 0 := by omega
  have hN : t.val < 16 := lt_of_lt_of_eq t.isLt (show cfg0.N = 16 from N_0)
  rw [Value.flushed5_C m c t h0 h3, Pieces.out_C]
  funext y
  obtain ⟨p, o, rfl⟩ : ∃ (p : Fin 1024) (o : Fin 100), y = ix2 p o := ⟨y 0, y 1, eq_ix2 y⟩
  have hr : t.val / 4 * 1024 + p.val < 4096 := by have := p.isLt; omega
  rw [View.read_apply, emb5 t p o hr]
  refine (Payloads.pay3_apply _ _ _ _ p o).trans ?_
  show _ = Ffn.out (hist m c) (w1 m c) (m ((c : Thread nD τ).loc main_arg2)) (m ((c : Thread nD τ).loc main_arg3)) (m ((c : Thread nD τ).loc main_arg4)) (ix2 ⟨t.val / 4 * 1024 + p.val, hr⟩ o)
  unfold Ffn.out Ffn.hid
  exact congrArg₂ (· + ·) (Finset.sum_congr rfl fun h _ => congrArg₂ (· * ·)
    (congrArg₂ (· + ·) (hidden_at m c t h3 p h hr) (blk3 m c t h)) (blk2 m c t o h)) (blk4 m c t o)

/-- An entry of the array is in point t's block iff each coordinate is in the block's range on its axis. -/
theorem mem_blk (t : Fin cfg0.N) (i : S4096x100.Idx) :
    i ∈ ((cfg0.win 5).blk t).view.set ↔ ∀ a : Fin 2, win0_5.index t a * S1024x100.size a ≤ (i a).val
      ∧ (i a).val < win0_5.index t a * S1024x100.size a + S1024x100.size a := by
  show i ∈ ((View.whole main_v26).slice (win0_5.rect t)).set ↔ _
  rw [View.set_slice_whole, Rect.mem_set_unit]
  exact Iff.rfl

/-- Every entry of the array lies in the block some flushing point writes: row r is in row block r / 1024, whose last point
    is 4 (r / 1024) + 3. -/
theorem cover (i : S4096x100.Idx) : ∃ t : Fin cfg0.N, (cfg0.win 5).flush t = true ∧ i ∈ ((cfg0.win 5).blk t).view.set := by
  have hi0 : (i 0).val < 4096 := (i 0).isLt
  have hi1 : (i 1).val < 100 := (i 1).isLt
  have hN : cfg0.N = 16 := N_0
  let t : Fin cfg0.N := ⟨4 * ((i 0).val / 1024) + 3, by rw [hN]; omega⟩
  have htv : t.val = 4 * ((i 0).val / 1024) + 3 := rfl
  obtain ⟨e0, e1⟩ := idx5 t
  refine ⟨t, (flush0_5 t).mpr (by rw [htv]; omega), ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 100 ≤ (i 1).val ∧ (i 1).val < win0_5.index t (1 : Fin 2) * 100 + 100; omega

/-- THE RESULT ARRAY after the run is the feed-forward map. -/
theorem final (c : Dev nD) : (dats m 0 c).arrAt 5 cfg0.N = result m c :=
  (dats m 0 c).arrAt_eq_of_cover 5 (result m c) (flushed_eq m c) cover

/-- THE RUN, READ: every weakly fair execution ends with the result array at the feed-forward map, the arguments unchanged. -/
theorem run : θ_run defs (onTc (τ := τ) (main (F := Ideal))) ⟨m, fun _ => 0, ρ⟩ fun r => ∀ c : Dev nD,
      r.2.mem ((c : Thread nD τ).loc main_v26) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.RunValue

end
-- ==== Proof.lean ====
/-
  A histogram feed-forward network: the tiled kernel against the plain reference, over the extended reals.

  Both programs build the same histogram H[b, c] (how often token c occurs in row b) by one scatter-add, and both compute

      out[b, o] = Σ_h (Σ_c H[b, c] · W1[h, c] + b1[h]) · W2[o, h] + b2[o].

  The reference does it with two whole matrix products. The kernel pads H and W1 with zero columns from 10000 to 10240, walks
  the first contraction in four tiles of 2560 columns per block of 1024 rows, accumulating in a scratch block it zeroes at the
  first tile, and at the last tile adds b1, multiplies by W2ᵀ, adds b2 and writes the [1024, 100] output block back. Over the
  extended reals a change of float format is the identity, a matrix product from a zero accumulator is the plain sum of
  products, the padded products are 0 · 0, and regrouping a finite sum needs only commutativity and associativity of +. So
  the two results agree entry by entry, whatever the inputs hold: the finiteness precondition is never opened.

  The three frames are the generated frame runs (the reference's is its run with the result dropped); the idealization rewrote
  nothing, so that conjunct is `True`.
-/
import proofs.«142848_j8658654069091_1_alg».proof.Defs
import proofs.«142848_j8658654069091_1_alg».proof.Proof.Gen.Kernel
import proofs.«142848_j8658654069091_1_alg».proof.Proof.Gen.Kernel.Frame
import proofs.«142848_j8658654069091_1_alg».proof.Proof.Gen.KernelIdeal
import proofs.«142848_j8658654069091_1_alg».proof.Proof.Gen.KernelIdeal.Frame
import proofs.«142848_j8658654069091_1_alg».proof.Proof.Gen.KernelIdeal.Value
import proofs.«142848_j8658654069091_1_alg».proof.Proof.Gen.ReferenceIdeal
import proofs.«142848_j8658654069091_1_alg».proof.Proof.Gen.ReferenceIdeal.Run
import proofs.«142848_j8658654069091_1_alg».proof.Proof.Gen.ReferenceIdeal.Read
import proofs.«142848_j8658654069091_1_alg».proof.Proof.Gen.Pre_finite_inputs
import proofs.«142848_j8658654069091_1_alg».proof.Proof.RefIsSpec
import proofs.«142848_j8658654069091_1_alg».proof.Proof.KernelRun
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's result array ends at the feed-forward map of the histogram of its token array, and
    the reference's at the same map of the same stage of a token array that agrees with it; the float arguments agree too. -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
